-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096x4096 : Shape := ⟨2, ![4096, 4096]⟩
abbrev S65536 : Shape := ⟨1, ![65536]⟩
abbrev S4096x32 : Shape := ⟨2, ![4096, 32]⟩
abbrev S32 : Shape := ⟨1, ![32]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S65536 : S_.BroadcastsInDim S65536 (![] : Fin 0 → Fin S65536.rank)
  reducesTo_S65536_S_d0 : S65536.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg7 : FVec F S32 .f32) (main_arg8 : FVec F S32x4096 .f32) (main_arg9 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x4096 .f32 := Host.absf main_arg8
  let main_cst_8 : FVec F S_ .f32 := constant S_ .f32 0x7F800000#32
  let main_v25 : FVec F S32x4096 .f32 := broadcastInDim S32x4096 ![] bcast_S_S32x4096 main_cst_8
  let main_v26 : IVec S32x4096 1 := cmpf .olt main_v24 main_v25
  let main_c_9 : IVec S_ 1 := constantI S_ 1 1#1
  let main_v27 : IVec S_ 1 := (fun x v => Host.reduce IntOp.andi x v reducesTo_S32x4096_S_d0_1 h_S_) main_v26 main_c_9
  let main_v28 : IVec S_ 1 := andi main_v23 main_v27
  let main_v29 : FVec F S4096 .f32 := Host.absf main_arg9
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S256 .f32) (main_arg2 : IVec S4096x4096 32) (main_arg3 : IVec S65536 32) (main_arg4 : IVec S65536 32) (main_arg5 : FVec F S65536 .f32) (main_arg6 : FVec F S4096x32 .f32) (main_arg7 : FVec F S32 .f32) (main_arg8 : FVec F S32x4096 .f32) (main_arg9 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S65536 .f32 := Host.absf main_arg5
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S4096x32 .f32 := Host.absf main_arg6
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg7 main_arg8 main_arg9 main_v13 main_v16
-- ==== Kernel.lean ====
abbrev S4x2048x4096 : Shape := ⟨3, ![4, 2048, 4096]⟩
abbrev S256 : Shape := ⟨1, ![256]⟩
abbrev S4096x4096 : Shape := ⟨2, ![4096, 4096]⟩
abbrev S65536 : Shape := ⟨1, ![65536]⟩
abbrev S4096x32 : Shape := ⟨2, ![4096, 32]⟩
abbrev S32 : Shape := ⟨1, ![32]⟩
abbrev S32x4096 : Shape := ⟨2, ![32, 4096]⟩
abbrev S4096 : Shape := ⟨1, ![4096]⟩
abbrev S_ : Shape := ⟨0, ![]⟩
abbrev S4096x4096x1 : Shape := ⟨3, ![4096, 4096, 1]⟩
abbrev S65536x1 : Shape := ⟨2, ![65536, 1]⟩
abbrev S65536x2 : Shape := ⟨2, ![65536, 2]⟩
abbrev S8192x4096 : Shape := ⟨2, ![8192, 4096]⟩
abbrev S8192x32 : Shape := ⟨2, ![8192, 32]⟩
abbrev S1x32 : Shape := ⟨2, ![1, 32]⟩
abbrev S1x4096 : Shape := ⟨2, ![1, 4096]⟩
abbrev S512x4096 : Shape := ⟨2, ![512, 4096]⟩
abbrev S512x32 : Shape := ⟨2, ![512, 32]⟩
abbrev S32x512 : Shape := ⟨2, ![32, 512]⟩
abbrev S1x512 : Shape := ⟨2, ![1, 512]⟩
abbrev S512x512 : Shape := ⟨2, ![512, 512]⟩

abbrev nBuf : Space → Nat
  | .hbm => 50
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S65536, .i32⟩
  | .hbm, ⟨4, _⟩ => ⟨S65536, .i32⟩
  | .hbm, ⟨5, _⟩ => ⟨S65536, .f32⟩
  | .hbm, ⟨6, _⟩ => ⟨S4096x32, .f32⟩
  | .hbm, ⟨7, _⟩ => ⟨S32, .f32⟩
  | .hbm, ⟨8, _⟩ => ⟨S32x4096, .f32⟩
  | .hbm, ⟨9, _⟩ => ⟨S4096, .f32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S4096x4096, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x1, .i32⟩
  | .hbm, ⟨35, _⟩ => ⟨S65536x2, .i32⟩
  | .hbm, ⟨36, _⟩ => ⟨S4096x4096, .f32⟩
  | .hbm, ⟨37, _⟩ => ⟨S4096x4096, .bf16⟩
  | .hbm, ⟨38, _⟩ => ⟨S8192x4096, .f32⟩
  | .hbm, ⟨39, _⟩ => ⟨S4096x32, .f32⟩
  | .hbm, ⟨40, _⟩ => ⟨S8192x32, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S8192x32, .bf16⟩
  | .hbm, ⟨45, _⟩ => ⟨S32x4096, .f32⟩
  | .hbm, ⟨46, _⟩ => ⟨S32x4096, .bf16⟩
  | .hbm, ⟨47, _⟩ => ⟨S1x4096, .f32⟩
  | .hbm, ⟨48, _⟩ => ⟨S8192x4096, .f32⟩
  | .hbm, ⟨49, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x32, .bf16⟩
  | .local _ .vmem, ⟨5, _⟩ => ⟨S512x32, .bf16⟩
  | .local _ .vmem, ⟨6, _⟩ => ⟨S32x512, .bf16⟩
  | .local _ .vmem, ⟨7, _⟩ => ⟨S32x512, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bitsLt_bf16_f32 : FTy.bits .bf16 < FTy.bits .f32
  shapeCasts_S4x2048x4096_S8192x4096 : S4x2048x4096.ShapeCasts S8192x4096
  transposes_S32x4096_S4096x32_1_0 : S32x4096.Transposes [1, 0] S4096x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S4096x32_S32x4096_1_0 : S4096x32.Transposes [1, 0] S32x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  scatter_S4096x4096_S65536x2_S65536_n_01_01_1_wf : ScatterDims.WF S4096x4096 S65536x2 S65536 [] [0, 1] [0, 1] 1
  dot_S8192x4096_S4096x32_S8192x32_1_0_0_1_n_n_wf : DotDims.WF S8192x4096 S4096x32 S8192x32 [1] [0] [0] [1] [] []
  dot_S512x4096_S512x4096_S512x512_1_1_0_0_n_n_wf : DotDims.WF S512x4096 S512x4096 S512x512 [1] [1] [0] [0] [] []
  dot_S512x32_S32x512_S512x512_1_0_0_1_n_n_wf : DotDims.WF S512x32 S32x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S8192x32.size a
  hwx0_2 : ∀ i : grid0.Coords, EltTy.bits .bf16 = 32 ∨ (Rect.block (s := S8192x32) S512x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x4096.size a
  hwx0_3 : ∀ i : grid0.Coords, EltTy.bits .bf16 = 32 ∨ (Rect.block (s := S32x4096) S32x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf

abbrev win0_0 : Pipeline.Window sig grid0 :=
  Pipeline.Window.ofSpec (Memref.whole main_v22) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256 : Shape := ⟨1, ![256]⟩
abbrev S4096x4096 : Shape := ⟨2, ![4096, 4096]⟩
abbrev S65536 : Shape := ⟨1, ![65536]⟩
abbrev S4096x32 : Shape := ⟨2, ![4096, 32]⟩
abbrev S32 : Shape := ⟨1, ![32]⟩
abbrev S32x4096 : Shape := ⟨2, ![32, 4096]⟩
abbrev S4096 : Shape := ⟨1, ![4096]⟩
abbrev S_ : Shape := ⟨0, ![]⟩
abbrev S4096x4096x1 : Shape := ⟨3, ![4096, 4096, 1]⟩
abbrev S65536x1 : Shape := ⟨2, ![65536, 1]⟩
abbrev S65536x2 : Shape := ⟨2, ![65536, 2]⟩
abbrev S1x32 : Shape := ⟨2, ![1, 32]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S65536, .i32⟩
  | .hbm, ⟨4, _⟩ => ⟨S65536, .i32⟩
  | .hbm, ⟨5, _⟩ => ⟨S65536, .f32⟩
  | .hbm, ⟨6, _⟩ => ⟨S4096x32, .f32⟩
  | .hbm, ⟨7, _⟩ => ⟨S32, .f32⟩
  | .hbm, ⟨8, _⟩ => ⟨S32x4096, .f32⟩
  | .hbm, ⟨9, _⟩ => ⟨S4096, .f32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S4096x4096, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x1, .i32⟩
  | .hbm, ⟨35, _⟩ => ⟨S65536x2, .i32⟩
  | .hbm, ⟨36, _⟩ => ⟨S4096x4096, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x4096, .f32⟩
  | .hbm, ⟨41, _⟩ => ⟨S4096x4096, .f32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  scatter_S4096x4096_S65536x2_S65536_n_01_01_1_wf : ScatterDims.WF S4096x4096 S65536x2 S65536 [] [0, 1] [0, 1] 1
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LowRankAlgebra.lean ====
/-
  The one law that joins the two programs, on the extended reals.

  Fix one output entry. Let `a` be a row of the activations, `w` the matching row of the dequantized
  weight (a table lookup plus scattered corrections: any extended reals), and `u`, `σ`, `v` the rank-r
  factors: a row of U, the singular values, and V^T. One program computes

      Σᵢ aᵢ · wᵢ  +  Σᵣ ((Σᵢ aᵢ · vᵣᵢ) · σᵣ) · uᵣ            (the low-rank term applied to the activations)

  and the other

      Σᵢ aᵢ · (wᵢ + Σᵣ (uᵣ · σᵣ) · vᵣᵢ)                      (the low-rank term folded into the weight).

  On the extended reals multiplication does not distribute over addition in general (⊤ + ⊥), but a FINITE
  factor distributes over the sum of any extended real and a finite number. So the two agree as soon as
  `a`, `u`, `σ`, `v` are finite, whatever the `wᵢ` are; the finite parts are rearranged in ℝ.
-/
import Mathlib.Data.EReal.Operations
import Mathlib.Algebra.BigOperators.Ring.Finset
import Mathlib.Algebra.BigOperators.Group.Finset.Sigma
import Mathlib.Tactic.Ring

namespace Cert.LowRank

open scoped BigOperators

/-- The coercion ℝ → EReal commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite factor distributes over the sum of an extended real and a finite number. -/
theorem coe_mul_add_coe (a l : ℝ) (w : EReal) : (a : EReal) * (w + (l : EReal)) = (a : EReal) * w + (a : EReal) * (l : EReal) := by
  induction w using EReal.rec with
  | coe r => rw [← EReal.coe_add, ← EReal.coe_mul, ← EReal.coe_mul, ← EReal.coe_mul, ← EReal.coe_add, mul_add]
  | top =>
    rw [EReal.top_add_coe, ← EReal.coe_mul]
    rcases lt_trichotomy a 0 with h | h | h
    · rw [EReal.coe_mul_top_of_neg h, EReal.bot_add]
    · subst h; simp
    · rw [EReal.coe_mul_top_of_pos h, EReal.top_add_coe]
  | bot =>
    rw [EReal.bot_add, ← EReal.coe_mul]
    rcases lt_trichotomy a 0 with h | h | h
    · rw [EReal.coe_mul_bot_of_neg h, EReal.top_add_coe]
    · subst h; simp
    · rw [EReal.coe_mul_bot_of_pos h, EReal.bot_add]

/-- The law over real witnesses: the low-rank term applied to the row `a`, or folded into the weight row `w`. -/
theorem fold_real {I R : Type*} [Fintype I] [Fintype R] (a : I → ℝ) (w : I → EReal) (u σ : R → ℝ) (v : R → I → ℝ) :
    (∑ i, (a i : EReal) * w i) + ∑ r, ((∑ i, (a i : EReal) * (v r i : EReal)) * (σ r : EReal)) * (u r : EReal)
      = ∑ i, (a i : EReal) * (w i + ∑ r, ((u r : EReal) * (σ r : EReal)) * (v r i : EReal)) := by
  have hL : ∀ i, (∑ r, ((u r : EReal) * (σ r : EReal)) * (v r i : EReal)) = ((∑ r, u r * σ r * v r i : ℝ) : EReal) := fun i => by
    rw [coe_sum]; exact Finset.sum_congr rfl fun r _ => by rw [EReal.coe_mul, EReal.coe_mul]
  have hT : ∀ r, ((∑ i, (a i : EReal) * (v r i : EReal)) * (σ r : EReal)) * (u r : EReal) = (((∑ i, a i * v r i) * σ r * u r : ℝ) : EReal) := fun r => by
    rw [EReal.coe_mul, EReal.coe_mul, coe_sum]
    simp only [EReal.coe_mul]
  simp only [hL, hT, coe_mul_add_coe]
  rw [Finset.sum_add_distrib, ← coe_sum]
  congr 1
  simp only [← EReal.coe_mul]
  rw [← coe_sum]
  congr 1
  simp only [Finset.mul_sum, Finset.sum_mul]
  rw [Finset.sum_comm]
  exact Finset.sum_congr rfl fun i _ => Finset.sum_congr rfl fun r _ => by ring

/-- The law for extended-real data that is finite where it has to be: every `aᵢ`, `uᵣ`, `σᵣ`, `vᵣᵢ` is a real
    number; the `wᵢ` are arbitrary. -/
theorem fold {I R : Type*} [Fintype I] [Fintype R] (a : I → EReal) (w : I → EReal) (u σ : R → EReal) (v : R → I → EReal)
    (ha : ∀ i, ∃ x : ℝ, a i = x) (hu : ∀ r, ∃ x : ℝ, u r = x) (hσ : ∀ r, ∃ x : ℝ, σ r = x) (hv : ∀ r i, ∃ x : ℝ, v r i = x) :
    (∑ i, a i * w i) + ∑ r, ((∑ i, a i * v r i) * σ r) * u r = ∑ i, a i * (w i + ∑ r, (u r * σ r) * v r i) := by
  choose a' ha using ha
  choose u' hu using hu
  choose σ' hσ using hσ
  choose v' hv using hv
  simp only [ha, hu, hσ, hv]
  exact fold_real a' w u' σ' v'

end Cert.LowRank
-- ==== Proof.Contractions.lean ====
/-
  The three matrix products of the kernel's program, read at an index over the extended reals: each entry is a
  plain sum over the one contracted axis of products of the operands' entries — no rounding, no order, no
  accumulator (each product starts from the zero splat).
-/
import proofs.«159486_j32615981646541_2_alg».proof.Proof.Gen.KernelIdeal
import Idealize.ShloMosaic.Lib.ValueIdx
import Idealize.ShloMosaic.PureOps.Ideal.Laws

noncomputable section

namespace Cert.KernelIdeal.Contract

open Cert.KernelIdeal Cert.KernelIdeal.Gen Idealize.ShloMosaic Idealize.ShloMosaic.ValueIdx

theorem block_product_lhs (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem block_product_rhs (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
/-- The block's main product, into a zero accumulator: entry (p, q) is the sum over the shared axis of row p of the
    activations' block against row q of the weight's block (the weight is kept in its [out, in] layout, so both
    operands are contracted along their second axis). -/
theorem block_product (l : FVec Ideal S512x4096 .bf16) (r : FVec Ideal S512x4096 .bf16) (p : Fin 512) (q : Fin 512) :
    matmul (F := Ideal) dot_S512x4096_S512x4096_S512x512_1_1_0_0_n_n none l r (constant (F := Ideal) S512x512 .f32 0x00000000#32) (ix2 p q) = ∑ k : Fin 4096, l (ix2 p k) * r (ix2 q k) := by
  simp only [matmul]
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k := funext fun a => Fin.ext (by
    match a with
    | ⟨0, _⟩ => exact block_product_lhs _ _
    | ⟨1, _⟩ => exact (dot_S512x4096_S512x4096_S512x512_1_1_0_0_n_n.lhsIdx_val_of_single rfl _ _).trans hk)
  have er : dot_S512x4096_S512x4096_S512x512_1_1_0_0_n_n.rhsIdx (ix2 p q) ((contrEquiv1 dot_S512x4096_S512x4096_S512x512_1_1_0_0_n_n 4096 rfl rfl).symm k) = ix2 q k := funext fun a => Fin.ext (by
    match a with
    | ⟨0, _⟩ => exact block_product_rhs _ _
    | ⟨1, _⟩ => exact (dot_S512x4096_S512x4096_S512x512_1_1_0_0_n_n.rhsIdx_val_of_single rfl _ _).trans hk)
  rw [el, er]

theorem block_lowrank_lhs (i : S512x512.Idx) (q : dot_S512x32_S32x512_S512x512_1_0_0_1_n_n.contr.Idx) :
    (dot_S512x32_S32x512_S512x512_1_0_0_1_n_n.lhsIdx i q 0).val = (i 0).val := by
  unfold DotDims.lhsIdx
  rw [dif_neg (show ¬(0 : Fin S512x32.rank) ∈ dot_S512x32_S32x512_S512x512_1_0_0_1_n_n.lhsBatch by decide), dif_pos (show (0 : Fin S512x32.rank) ∈ dot_S512x32_S32x512_S512x512_1_0_0_1_n_n.lhsNonContracting by decide)]
  rfl
theorem block_lowrank_rhs (i : S512x512.Idx) (q : dot_S512x32_S32x512_S512x512_1_0_0_1_n_n.contr.Idx) :
    (dot_S512x32_S32x512_S512x512_1_0_0_1_n_n.rhsIdx i q 1).val = (i 1).val := by
  unfold DotDims.rhsIdx
  rw [dif_neg (show ¬(1 : Fin S32x512.rank) ∈ dot_S512x32_S32x512_S512x512_1_0_0_1_n_n.rhsBatch by decide), dif_pos (show (1 : Fin S32x512.rank) ∈ dot_S512x32_S32x512_S512x512_1_0_0_1_n_n.rhsNonContracting by decide)]
  rfl
/-- The block's rank-32 product, into a zero accumulator: entry (p, q) is the sum over the rank axis of row p of the
    projected activations against column q of U transposed. -/
theorem block_lowrank (l : FVec Ideal S512x32 .bf16) (r : FVec Ideal S32x512 .bf16) (p : Fin 512) (q : Fin 512) :
    matmul (F := Ideal) dot_S512x32_S32x512_S512x512_1_0_0_1_n_n none l r (constant (F := Ideal) S512x512 .f32 0x00000000#32) (ix2 p q) = ∑ k : Fin 32, l (ix2 p k) * r (ix2 k q) := by
  simp only [matmul]
  rw [Ideal.matmul_constant_zero_apply, ← Equiv.sum_comp (contrEquiv1 dot_S512x32_S32x512_S512x512_1_0_0_1_n_n 32 rfl rfl).symm]
  refine Finset.sum_congr rfl fun k _ => ?_
  have hk := contrEquiv1_symm_val dot_S512x32_S32x512_S512x512_1_0_0_1_n_n 32 rfl rfl k
  have el : dot_S512x32_S32x512_S512x512_1_0_0_1_n_n.lhsIdx (ix2 p q) ((contrEquiv1 dot_S512x32_S32x512_S512x512_1_0_0_1_n_n 32 rfl rfl).symm k) = ix2 p k := funext fun a => Fin.ext (by
    match a with
    | ⟨0, _⟩ => exact block_lowrank_lhs _ _
    | ⟨1, _⟩ => exact (dot_S512x32_S32x512_S512x512_1_0_0_1_n_n.lhsIdx_val_of_single rfl _ _).trans hk)
  have er : dot_S512x32_S32x512_S512x512_1_0_0_1_n_n.rhsIdx (ix2 p q) ((contrEquiv1 dot_S512x32_S32x512_S512x512_1_0_0_1_n_n 32 rfl rfl).symm k) = ix2 k q := funext fun a => Fin.ext (by
    match a with
    | ⟨0, _⟩ => exact (dot_S512x32_S32x512_S512x512_1_0_0_1_n_n.rhsIdx_val_of_single rfl _ _).trans hk
    | ⟨1, _⟩ => exact block_lowrank_rhs _ _)
  rw [el, er]

theorem host_projection_lhs (i : S8192x32.Idx) (q : dot_S8192x4096_S4096x32_S8192x32_1_0_0_1_n_n.contr.Idx) :
    (dot_S8192x4096_S4096x32_S8192x32_1_0_0_1_n_n.lhsIdx i q 0).val = (i 0).val := by
  unfold DotDims.lhsIdx
  rw [dif_neg (show ¬(0 : Fin S8192x4096.rank) ∈ dot_S8192x4096_S4096x32_S8192x32_1_0_0_1_n_n.lhsBatch by decide), dif_pos (show (0 : Fin S8192x4096.rank) ∈ dot_S8192x4096_S4096x32_S8192x32_1_0_0_1_n_n.lhsNonContracting by decide)]
  rfl
theorem host_projection_rhs (i : S8192x32.Idx) (q : dot_S8192x4096_S4096x32_S8192x32_1_0_0_1_n_n.contr.Idx) :
    (dot_S8192x4096_S4096x32_S8192x32_1_0_0_1_n_n.rhsIdx i q 1).val = (i 1).val := by
  unfold DotDims.rhsIdx
  rw [dif_neg (show ¬(1 : Fin S4096x32.rank) ∈ dot_S8192x4096_S4096x32_S8192x32_1_0_0_1_n_n.rhsBatch by decide), dif_pos (show (1 : Fin S4096x32.rank) ∈ dot_S8192x4096_S4096x32_S8192x32_1_0_0_1_n_n.rhsNonContracting by decide)]
  rfl
/-- The host's projection of the flattened activations onto the rank axis: entry (p, q) is the sum over the input
    axis of row p of the activations against column q of V (V^T transposed). -/
theorem host_projection (l : FVec Ideal S8192x4096 .f32) (r : FVec Ideal S4096x32 .f32) (p : Fin 8192) (q : Fin 32) :
    Host.dotGeneral (F := Ideal) dot_S8192x4096_S4096x32_S8192x32_1_0_0_1_n_n none l r (ix2 p q) = ∑ k : Fin 4096, l (ix2 p k) * r (ix2 k q) := by
  simp only [Host.dotGeneral]
  rw [Ideal.dotGeneral_apply, ← Equiv.sum_comp (contrEquiv1 dot_S8192x4096_S4096x32_S8192x32_1_0_0_1_n_n 4096 rfl rfl).symm]
  refine Finset.sum_congr rfl fun k _ => ?_
  have hk := contrEquiv1_symm_val dot_S8192x4096_S4096x32_S8192x32_1_0_0_1_n_n 4096 rfl rfl k
  have el : dot_S8192x4096_S4096x32_S8192x32_1_0_0_1_n_n.lhsIdx (ix2 p q) ((contrEquiv1 dot_S8192x4096_S4096x32_S8192x32_1_0_0_1_n_n 4096 rfl rfl).symm k) = ix2 p k := funext fun a => Fin.ext (by
    match a with
    | ⟨0, _⟩ => exact host_projection_lhs _ _
    | ⟨1, _⟩ => exact (dot_S8192x4096_S4096x32_S8192x32_1_0_0_1_n_n.lhsIdx_val_of_single rfl _ _).trans hk)
  have er : dot_S8192x4096_S4096x32_S8192x32_1_0_0_1_n_n.rhsIdx (ix2 p q) ((contrEquiv1 dot_S8192x4096_S4096x32_S8192x32_1_0_0_1_n_n 4096 rfl rfl).symm k) = ix2 k q := funext fun a => Fin.ext (by
    match a with
    | ⟨0, _⟩ => exact (dot_S8192x4096_S4096x32_S8192x32_1_0_0_1_n_n.rhsIdx_val_of_single rfl _ _).trans hk
    | ⟨1, _⟩ => exact host_projection_rhs _ _)
  rw [el, er]

end Cert.KernelIdeal.Contract

end
-- ==== Proof.BlockBody.lean ====
/-
  What the kernel's body stores, read at an index over the extended reals.

  The body loads a [512, 4096] block of activations, a [512, 4096] block of the weight (rows = output features),
  a [512, 32] block of projected activations, a [32, 512] block of U transposed and a [1, 512] piece of the bias,
  and stores, at (p, q) of the [512, 512] output block,

      (Σₖ x(p, k) · w(q, k)  +  Σᵣ t(p, r) · uᵗ(r, q))  +  bias(0, q).

  The changes of float format and the same-shape casts are the identity here.
-/
import proofs.«159486_j32615981646541_2_alg».proof.Proof.Gen.KernelIdeal.Skeleton
import proofs.«159486_j32615981646541_2_alg».proof.Proof.Contractions
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The stored value at (p, q): the main product, plus the rank-32 product, plus the bias of column q. -/
theorem payload_apply (x0 : Vec Ideal S512x4096 .f32) (x1 : Vec Ideal S512x4096 .bf16) (x2 : Vec Ideal S512x32 .bf16)
    (x3 : Vec Ideal S32x512 .bf16) (x4 : Vec Ideal S1x512 .f32) (p q : Fin 512) :
    k0_pay1 (F := Ideal) x0 x1 x2 x3 x4 (ix2 p q)
      = ((∑ k : Fin 4096, (x0 (ix2 p k) : EReal) * (x1 (ix2 q k) : EReal)) + ∑ r : Fin 32, (x2 (ix2 p r) : EReal) * (x3 (ix2 r q) : EReal))
        + (x4 (ix2 (0 : Fin 1) q) : EReal) := by
  unfold k0_pay1
  simp only [shapeCast_self]
  show (matmul (F := Ideal) dot_S512x4096_S512x4096_S512x512_1_1_0_0_n_n none (truncf .bf16 (x0 : FVec Ideal S512x4096 .f32) bitsLt_bf16_f32) (x1 : FVec Ideal S512x4096 .bf16)
          (constant (F := Ideal) S512x512 .f32 0x00000000#32) (ix2 p q)
        + matmul (F := Ideal) dot_S512x32_S32x512_S512x512_1_0_0_1_n_n none (x2 : FVec Ideal S512x32 .bf16) (x3 : FVec Ideal S32x512 .bf16)
          (constant (F := Ideal) S512x512 .f32 0x00000000#32) (ix2 p q))
      + broadcastTo S512x512 (x4 : FVec Ideal S1x512 .f32) broadcasts_S1x512_S512x512 (ix2 p q) = _
  rw [Contract.block_product, Contract.block_lowrank, broadcastTo_1b_ab_apply]
  rfl

end Cert.KernelIdeal.Body

end
-- ==== Proof.OutputArray.lean ====
/-
  The kernel's output array after the run, as ONE function of the five arrays the region finds.

  The grid is 16 × 8; point (i, j) reads rows 512·i … of the activations and of the projected activations,
  rows 512·j … of the weight, columns 512·j … of U transposed and of the bias row, and writes block (i, j) of
  the [8192, 4096] output. Every block is a block of the same whole-array function: entry (row, col) is

      (Σₖ X(row, k) · W(col, k)  +  Σᵣ T(row, r) · Uᵗ(r, col))  +  B(0, col),

  and the 128 blocks tile the array, so the array ends holding that function; the program's result is the
  array regrouped to [4, 2048, 4096].
-/
import proofs.«159486_j32615981646541_2_alg».proof.Proof.Gen.KernelIdeal.Frame
import proofs.«159486_j32615981646541_2_alg».proof.Proof.BlockBody
import Idealize.ShloMosaic.Lib.Pipeline.Value
import Idealize.ShloMosaic.Lib.StableHlo.Run

set_option maxRecDepth 16384

noncomputable section

namespace Cert.KernelIdeal.Out

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- One entry of the output, from the five arrays. -/
def entry (X : S8192x4096.Idx → EReal) (W : S4096x4096.Idx → EReal) (T : S8192x32.Idx → EReal) (Ut : S32x4096.Idx → EReal)
    (B : S1x4096.Idx → EReal) (row : Fin 8192) (col : Fin 4096) : EReal :=
  ((∑ k : Fin 4096, X (ix2 row k) * W (ix2 col k)) + ∑ r : Fin 32, T (ix2 row r) * Ut (ix2 r col)) + B (ix2 (0 : Fin 1) col)

/-- The whole output array. -/
def whole (X : S8192x4096.Idx → EReal) (W : S4096x4096.Idx → EReal) (T : S8192x32.Idx → EReal) (Ut : S32x4096.Idx → EReal)
    (B : S1x4096.Idx → EReal) : S8192x4096.Idx → EReal :=
  fun i => entry X W T Ut B ⟨(i 0).val, (i 0).isLt⟩ ⟨(i 1).val, (i 1).isLt⟩

/-- The output array of core `c`, from the arrays as the region finds them. -/
def outArr (c : Dev nD) : S8192x4096.Idx → EReal :=
  whole (V m c main_v22) (V m c main_v21) (V m c main_v28) (V m c main_v30) (V m c main_v31)

/-- How the input windows' block indices follow the output's, decided over the 128 points: the activations and
    the projected activations move with the output's row block, the weight's ROW block with the output's column
    block, U transposed and the bias with the output's column block; the other index of each stays 0. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 7 :=
  (by decide +kernel : ∀ t : Fin grid0.N, _)

/-- Every (row block, column block) is some point's. -/
theorem index_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-! ## Each input block is its array read where the output's block says -/

theorem read_x (c : Dev nD) (t : Fin cfg0.N) (p : Fin 512) (k : Fin 4096) (row : Fin 8192)
    (hrow : row.val = win0_5.index t (0 : Fin 2) * 512 + p.val) :
    (iblk m c 0 t : S512x4096.Idx → EReal) (ix2 p k) = (V m c main_v22 : S8192x4096.Idx → EReal) (ix2 row k) := by
  obtain ⟨e0, e1, -⟩ := index_facts t
  show V m c main_v22 (((cfg0.win 0).blk t).view.emb (ix2 p k)) = V m c main_v22 (ix2 row k)
  refine congrArg (V m c main_v22) (funext fun a => Fin.ext ?_)
  match a with
  | ⟨0, _⟩ => show win0_0.index t (0 : Fin 2) * 512 + 1 * p.val = row.val; rw [e0, hrow]; omega
  | ⟨1, _⟩ => show win0_0.index t (1 : Fin 2) * 4096 + 1 * k.val = k.val; rw [e1]; omega

theorem read_w (c : Dev nD) (t : Fin cfg0.N) (q : Fin 512) (k : Fin 4096) (col : Fin 4096)
    (hcol : col.val = win0_5.index t (1 : Fin 2) * 512 + q.val) :
    (iblk m c 1 t : S512x4096.Idx → EReal) (ix2 q k) = (V m c main_v21 : S4096x4096.Idx → EReal) (ix2 col k) := by
  obtain ⟨-, -, e0, e1, -⟩ := index_facts t
  show V m c main_v21 (((cfg0.win 1).blk t).view.emb (ix2 q k)) = V m c main_v21 (ix2 col k)
  refine congrArg (V m c main_v21) (funext fun a => Fin.ext ?_)
  match a with
  | ⟨0, _⟩ => show win0_1.index t (0 : Fin 2) * 512 + 1 * q.val = col.val; rw [e0, hcol]; omega
  | ⟨1, _⟩ => show win0_1.index t (1 : Fin 2) * 4096 + 1 * k.val = k.val; rw [e1]; omega

theorem read_t (c : Dev nD) (t : Fin cfg0.N) (p : Fin 512) (r : Fin 32) (row : Fin 8192)
    (hrow : row.val = win0_5.index t (0 : Fin 2) * 512 + p.val) :
    (iblk m c 2 t : S512x32.Idx → EReal) (ix2 p r) = (V m c main_v28 : S8192x32.Idx → EReal) (ix2 row r) := by
  obtain ⟨-, -, -, -, e0, e1, -⟩ := index_facts t
  show V m c main_v28 (((cfg0.win 2).blk t).view.emb (ix2 p r)) = V m c main_v28 (ix2 row r)
  refine congrArg (V m c main_v28) (funext fun a => Fin.ext ?_)
  match a with
  | ⟨0, _⟩ => show win0_2.index t (0 : Fin 2) * 512 + 1 * p.val = row.val; rw [e0, hrow]; omega
  | ⟨1, _⟩ => show win0_2.index t (1 : Fin 2) * 32 + 1 * r.val = r.val; rw [e1]; omega

theorem read_ut (c : Dev nD) (t : Fin cfg0.N) (r : Fin 32) (q : Fin 512) (col : Fin 4096)
    (hcol : col.val = win0_5.index t (1 : Fin 2) * 512 + q.val) :
    (iblk m c 3 t : S32x512.Idx → EReal) (ix2 r q) = (V m c main_v30 : S32x4096.Idx → EReal) (ix2 r col) := by
  obtain ⟨-, -, -, -, -, -, e0, e1, -⟩ := index_facts t
  show V m c main_v30 (((cfg0.win 3).blk t).view.emb (ix2 r q)) = V m c main_v30 (ix2 r col)
  refine congrArg (V m c main_v30) (funext fun a => Fin.ext ?_)
  match a with
  | ⟨0, _⟩ => show win0_3.index t (0 : Fin 2) * 32 + 1 * r.val = r.val; rw [e0]; omega
  | ⟨1, _⟩ => show win0_3.index t (1 : Fin 2) * 512 + 1 * q.val = col.val; rw [e1, hcol]; omega

theorem read_b (c : Dev nD) (t : Fin cfg0.N) (q : Fin 512) (col : Fin 4096)
    (hcol : col.val = win0_5.index t (1 : Fin 2) * 512 + q.val) :
    (iblk m c 4 t : S1x512.Idx → EReal) (ix2 (0 : Fin 1) q) = (V m c main_v31 : S1x4096.Idx → EReal) (ix2 (0 : Fin 1) col) := by
  obtain ⟨-, -, -, -, -, -, -, -, e0, e1, -⟩ := index_facts t
  show V m c main_v31 (((cfg0.win 4).blk t).view.emb (ix2 (0 : Fin 1) q)) = V m c main_v31 (ix2 (0 : Fin 1) col)
  refine congrArg (V m c main_v31) (funext fun a => Fin.ext ?_)
  match a with
  | ⟨0, _⟩ => show win0_4.index t (0 : Fin 2) * 1 + 1 * 0 = 0; rw [e0]
  | ⟨1, _⟩ => show win0_4.index t (1 : Fin 2) * 512 + 1 * q.val = col.val; rw [e1, hcol]; omega

/-! ## What a point writes back -/

/-- Point `t` writes back block `t` of the whole-array function. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero zero_offsets]
  simp only [View.ld_unit_zero (S := S512x4096) zero_offsets, View.ld_unit_zero (S := S512x32) zero_offsets,
    View.ld_unit_zero (S := S32x512) zero_offsets, View.ld_unit_zero (S := S1x512) zero_offsets]
  funext j
  obtain ⟨p, q, rfl⟩ : ∃ (p : Fin 512) (q : Fin 512), j = ix2 p q := ⟨j 0, j 1, eq_ix2 j⟩
  show k0_pay1 (F := Ideal) (iblk m c 0 t) (iblk m c 1 t) (iblk m c 2 t) (iblk m c 3 t) (iblk m c 4 t) (ix2 p q)
    = outArr m c (((cfg0.win 5).blk t).view.emb (ix2 p q))
  refine (Body.payload_apply (iblk m c 0 t) (iblk m c 1 t) (iblk m c 2 t) (iblk m c 3 t) (iblk m c 4 t) p q).trans ?_
  have h0 : (((cfg0.win 5).blk t).view.emb (ix2 p q) 0).val = win0_5.index t (0 : Fin 2) * 512 + p.val := by
    show win0_5.index t (0 : Fin 2) * 512 + 1 * p.val = _; omega
  have h1 : (((cfg0.win 5).blk t).view.emb (ix2 p q) 1).val = win0_5.index t (1 : Fin 2) * 512 + q.val := by
    show win0_5.index t (1 : Fin 2) * 512 + 1 * q.val = _; omega
  unfold outArr whole entry
  refine congrArg₂ (· + ·) (congrArg₂ (· + ·) (Finset.sum_congr rfl fun k _ => ?_) (Finset.sum_congr rfl fun r _ => ?_)) ?_
  · rw [read_x m c t p k ⟨_, (((cfg0.win 5).blk t).view.emb (ix2 p q) 0).isLt⟩ h0, read_w m c t q k ⟨_, (((cfg0.win 5).blk t).view.emb (ix2 p q) 1).isLt⟩ h1]
  · rw [read_t m c t p r ⟨_, (((cfg0.win 5).blk t).view.emb (ix2 p q) 0).isLt⟩ h0, read_ut m c t r q ⟨_, (((cfg0.win 5).blk t).view.emb (ix2 p q) 1).isLt⟩ h1]
  · exact read_b m c t q ⟨_, (((cfg0.win 5).blk t).view.emb (ix2 p q) 1).isLt⟩ h1

/-! ## The blocks tile the array -/

theorem mem_block (t : Fin cfg0.N) (i : S8192x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v32).slice (win0_5.rect t)).set ↔ _
  rw [View.set_slice_whole, Rect.mem_set_unit]
  exact Iff.rfl

/-- Entry (row, col) lies in the block of the point with row block row / 512 and column block col / 512. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := index_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The output array after the run. -/
theorem final (c : Dev nD) : (dats m 0 c).arrAt 5 cfg0.N = outArr m c :=
  (dats m 0 c).arrAt_eq_of_cover 5 (outArr m c) (fun t _ => flushed_eq m c t) covered

end Cert.KernelIdeal.Out

end
-- ==== Proof.EntryArrays.lean ====
/-
  What the region finds in each window's array: the host lines in front of the kernel, as terms of the
  program's arguments, and those terms read at an index over the extended reals.

    * the activations, flattened from [4, 2048, 4096] to [8192, 4096]: row b·2048 + s is (b, s);
    * the dequantized weight WITHOUT the low-rank term (a table lookup plus scattered corrections: `dequant`),
      in its [out, in] layout; its change of float format is the identity on the extended reals;
    * the projected activations t = (x · V) ⊙ σ, [8192, 32]: entry (p, r) is (Σₖ x(p, k) · Vᵀ(r, k)) · σ(r);
    * U transposed, [32, 4096]: entry (r, o) is U(o, r);
    * the bias as one row, [1, 4096]: entry (0, o) is bias(o).
-/
import proofs.«159486_j32615981646541_2_alg».proof.Proof.Gen.KernelIdeal.Frame
import proofs.«159486_j32615981646541_2_alg».proof.Proof.Contractions
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- The dequantized weight before the low-rank term: every entry looked up in the codebook (a negative index
    counted from the end), then the sparse corrections added at their (row, column) positions. The kernel's program
    and the reference compute it by the same operations of the same arguments, so it is carried as ONE function and
    never opened. -/
def dequant (codebook : FVec Ideal S256 .f32) (indices : IVec S4096x4096 32) (rows cols : IVec S65536 32)
    (deltas : FVec Ideal S65536 .f32) : FVec Ideal S4096x4096 .f32 :=
  Host.scatterAdd (F := Ideal) scatter_S4096x4096_S65536x2_S65536_n_01_01_1
    (Host.gather gather_S256_S4096x4096x1_S4096x4096_n_0_n_n_0_2_1 codebook
      (broadcastInDim S4096x4096x1 ![0, 1] bcast_S4096x4096_S4096x4096x1_0_1
        (select (cmpi .slt indices (broadcastInDim S4096x4096 ![] bcast_S_S4096x4096 (constantI S_ 32 0#32)))
          (addi indices (broadcastInDim S4096x4096 ![] bcast_S_S4096x4096 (constantI S_ 32 256#32))) indices)))
    (concatenate S65536x2 1
      [⟨S65536x1, broadcastInDim S65536x1 ![0] bcast_S65536_S65536x1_0
          (select (cmpi .slt rows (broadcastInDim S65536 ![] bcast_S_S65536 (constantI S_ 32 0#32)))
            (addi rows (broadcastInDim S65536 ![] bcast_S_S65536 (constantI S_ 32 4096#32))) rows)⟩,
       ⟨S65536x1, broadcastInDim S65536x1 ![0] bcast_S65536_S65536x1_0
          (select (cmpi .slt cols (broadcastInDim S65536 ![] bcast_S_S65536 (constantI S_ 32 0#32)))
            (addi cols (broadcastInDim S65536 ![] bcast_S_S65536 (constantI S_ 32 4096#32))) cols)⟩]
      concatenates_S65536x1_S65536x1_S65536x2_d1)
    deltas

/-- The activations flattened to rows. -/
abbrev flat (x : FVec Ideal S4x2048x4096 .f32) : FVec Ideal S8192x4096 .f32 :=
  shapeCast S8192x4096 x shapeCasts_S4x2048x4096_S8192x4096

/-- The projected activations: (x · V) scaled by the singular values, column by column. -/
abbrev projected (x : FVec Ideal S4x2048x4096 .f32) (s : FVec Ideal S32 .f32) (vt : FVec Ideal S32x4096 .f32) :
    FVec Ideal S8192x32 .f32 :=
  mulf (Host.dotGeneral (F := Ideal) dot_S8192x4096_S4096x32_S8192x32_1_0_0_1_n_n none (flat x)
      (transpose S4096x32 [1, 0] vt transposes_S32x4096_S4096x32_1_0))
    (broadcastInDim S8192x32 ![0, 1] bcast_S1x32_S8192x32_0_1 (broadcastInDim S1x32 ![1] bcast_S32_S1x32_1 s))

variable (m : (ℓ : Loc nD τ sig) → Buf (Elt Ideal) ℓ)

/-! ## The arrays at the region's entry -/

theorem entry_x (c : Dev nD) : (V m c main_v22 : S8192x4096.Idx → EReal)
    = flat (m ((c.tc : Thread nD τ).loc main_arg0)) := by
  show StableHlo.after hostOps0 (fun b => m (c, b)) (Proc.devRef .tc main_v22) = _
  after_results
  rfl

set_option maxHeartbeats 2000000 in
theorem entry_w (c : Dev nD) : (V m c main_v21 : S4096x4096.Idx → EReal)
    = dequant (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  show StableHlo.after hostOps0 (fun b => m (c, b)) (Proc.devRef .tc main_v21) = _
  after_results_simp <;> rfl

set_option maxHeartbeats 2000000 in
theorem entry_t (c : Dev nD) : (V m c main_v28 : S8192x32.Idx → EReal)
    = projected (m ((c.tc : Thread nD τ).loc main_arg0)) (m ((c.tc : Thread nD τ).loc main_arg7)) (m ((c.tc : Thread nD τ).loc main_arg8)) := by
  show StableHlo.after hostOps0 (fun b => m (c, b)) (Proc.devRef .tc main_v28) = _
  after_results_simp <;> rfl

set_option maxHeartbeats 2000000 in
theorem entry_ut (c : Dev nD) : (V m c main_v30 : S32x4096.Idx → EReal)
    = transpose S32x4096 [1, 0] (m ((c.tc : Thread nD τ).loc main_arg6)) transposes_S4096x32_S32x4096_1_0 := by
  show StableHlo.after hostOps0 (fun b => m (c, b)) (Proc.devRef .tc main_v30) = _
  after_results_simp <;> rfl

theorem entry_bias (c : Dev nD) : (V m c main_v31 : S1x4096.Idx → EReal)
    = shapeCast S1x4096 (m ((c.tc : Thread nD τ).loc main_arg9)) shapeCasts_S4096_S1x4096 := by
  show StableHlo.after hostOps0 (fun b => m (c, b)) (Proc.devRef .tc main_v31) = _
  after_results
  rfl

/-! ## The same, read at an index -/

/-- Row b·2048 + s of the flattened activations is (b, s) of the activations. -/
theorem flat_apply (x : FVec Ideal S4x2048x4096 .f32) (b : Fin 4) (s : Fin 2048) (k : Fin 4096) (p : Fin 8192)
    (hp : p.val = b.val * 2048 + s.val) : flat x (ix2 p k) = x (ix3 b s k) :=
  shapeCast_apply x shapeCasts_S4x2048x4096_S8192x4096 _ _ (by
    rw [Shape.rowMajor_val_three, Shape.rowMajor_val_two]
    show (b.val * 2048 + s.val) * 4096 + k.val = p.val * 4096 + k.val
    rw [hp])

/-- Entry (p, r) of the projected activations: the row's product with row r of Vᵀ, times σ(r). -/
theorem projected_apply (x : FVec Ideal S4x2048x4096 .f32) (s : FVec Ideal S32 .f32) (vt : FVec Ideal S32x4096 .f32)
    (p : Fin 8192) (r : Fin 32) :
    projected x s vt (ix2 p r) = (∑ k : Fin 4096, flat x (ix2 p k) * vt (ix2 r k)) * s (ix1 r) := by
  show (Host.dotGeneral (F := Ideal) dot_S8192x4096_S4096x32_S8192x32_1_0_0_1_n_n none (flat x)
      (transpose S4096x32 [1, 0] vt transposes_S32x4096_S4096x32_1_0)) (ix2 p r)
    * (broadcastInDim S8192x32 ![0, 1] bcast_S1x32_S8192x32_0_1 (broadcastInDim S1x32 ![1] bcast_S32_S1x32_1 s)) (ix2 p r) = _
  rw [Contract.host_projection]
  have hs : (broadcastInDim S8192x32 ![0, 1] bcast_S1x32_S8192x32_0_1 (broadcastInDim S1x32 ![1] bcast_S32_S1x32_1 s)) (ix2 p r) = s (ix1 r) := by
    refine (broadcastInDim_apply _ bcast_S1x32_S8192x32_0_1 _ (ix2 p r) (ix2 (0 : Fin 1) r) (fun a => match a with
      | ⟨0, _⟩ => by show 0 = if (1 : Nat) = 1 then 0 else p.val; rw [if_pos rfl]
      | ⟨1, _⟩ => by show r.val = if (32 : Nat) = 1 then 0 else r.val; rw [if_neg (by decide)])).trans ?_
    exact broadcastInDim_apply _ bcast_S32_S1x32_1 s (ix2 (0 : Fin 1) r) (ix1 r) (fun a => match a with
      | ⟨0, _⟩ => by show r.val = if (32 : Nat) = 1 then 0 else r.val; rw [if_neg (by decide)])
  rw [hs]
  congr 1
  exact Finset.sum_congr rfl fun k _ => by rw [transpose_ix2_apply]

/-- Entry (r, o) of U transposed is U(o, r). -/
theorem ut_apply (u : FVec Ideal S4096x32 .f32) (r : Fin 32) (o : Fin 4096) :
    transpose S32x4096 [1, 0] u transposes_S4096x32_S32x4096_1_0 (ix2 r o) = u (ix2 o r) :=
  transpose_ix2_apply u transposes_S4096x32_S32x4096_1_0 r o

/-- Entry (0, o) of the bias row is bias(o). -/
theorem bias_apply (bias : FVec Ideal S4096 .f32) (o : Fin 4096) :
    shapeCast S1x4096 bias shapeCasts_S4096_S1x4096 (ix2 (0 : Fin 1) o) = bias (ix1 o) :=
  shapeCast_a_1a_apply bias shapeCasts_S4096_S1x4096 0 o

end Cert.KernelIdeal.Entry

end
-- ==== Proof.KernelResult.lean ====
/-
  The kernel program's result as a function of its arguments.

  After the region one host line regroups the [8192, 4096] output to [4, 2048, 4096]: (b, s, o) reads row
  b·2048 + s, column o. With the five arrays the region reads replaced by what the host lines in front of it
  computed, the result at (b, s, o) is

      (Σₖ x(b, s, k) · W₀(o, k)  +  Σᵣ ((Σₖ x(b, s, k) · Vᵀ(r, k)) · σ(r)) · U(o, r))  +  bias(o).
-/
import proofs.«159486_j32615981646541_2_alg».proof.Proof.OutputArray
import proofs.«159486_j32615981646541_2_alg».proof.Proof.EntryArrays

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The program's result on core `c`: the output array regrouped. -/
def result (c : Dev nD) : Buf (Elt Ideal) ((c.tc : Thread nD τ).loc main_v33) :=
  shapeCast S4x2048x4096 (Out.outArr m c) shapeCasts_S8192x4096_S4x2048x4096

/-- The host line after the region applied to what the region leaves: the output array is the final array of
    the pipeline's output window, which is the whole-array function. -/
theorem tail_eq (c : Dev nD) :
    Pipeline.afterTail₀ cfgs (dats m) 0 (V0 m) [hostOps1] c main_v33 = result m c := by
  unfold Pipeline.afterTail₀ result
  show StableHlo.after hostOps1 _ (Proc.devRef .tc main_v33) = _
  after_results
  have hw : Pipeline.withArrays (cfgs 0).spec c (V0 m c) (fun w => (dats m 0 c).arrAt w (cfgs 0).N) (Proc.tc.devRef main_v32)
      = Out.outArr m c :=
    (Pipeline.withArrays_arr spec0 launch0.win.arr_inj c _ _ 5).trans (Out.final m c)
  rw [hw]
  rfl

/-- The run, read: every weakly fair execution ends with the result array at `result` and the arguments unchanged. -/
theorem run : θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v33 (Pipeline.mem_restRefs_of main_v33 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

/-- The output array at (row, col), with the five arrays the region finds named. -/
theorem outArr_apply (c : Dev nD) (row : Fin 8192) (col : Fin 4096)
    (X : S8192x4096.Idx → EReal) (W : S4096x4096.Idx → EReal) (T : S8192x32.Idx → EReal) (Ut : S32x4096.Idx → EReal) (B : S1x4096.Idx → EReal)
    (hX : (V m c main_v22 : S8192x4096.Idx → EReal) = X) (hW : (V m c main_v21 : S4096x4096.Idx → EReal) = W)
    (hT : (V m c main_v28 : S8192x32.Idx → EReal) = T) (hUt : (V m c main_v30 : S32x4096.Idx → EReal) = Ut)
    (hB : (V m c main_v31 : S1x4096.Idx → EReal) = B) :
    Out.outArr m c (ix2 row col) = Out.entry X W T Ut B row col := by
  subst hX hW hT hUt hB
  rfl

/-- The result at (b, s, o), in terms of the arguments (named `x0` … `x9`, each the launch contents of its buffer). -/
theorem result_apply (c : Dev nD) (b : Fin 4) (s : Fin 2048) (o : Fin 4096)
    (x0 : FVec Ideal S4x2048x4096 .f32) (x1 : FVec Ideal S256 .f32) (x2 : IVec S4096x4096 32) (x3 x4 : IVec S65536 32)
    (x5 : FVec Ideal S65536 .f32) (x6 : FVec Ideal S4096x32 .f32) (x7 : FVec Ideal S32 .f32) (x8 : FVec Ideal S32x4096 .f32)
    (x9 : FVec Ideal S4096 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (h6 : m ((c.tc : Thread nD τ).loc main_arg6) = x6) (h7 : m ((c.tc : Thread nD τ).loc main_arg7) = x7)
    (h8 : m ((c.tc : Thread nD τ).loc main_arg8) = x8) (h9 : m ((c.tc : Thread nD τ).loc main_arg9) = x9) :
    result m c (ix3 b s o)
      = ((∑ k : Fin 4096, x0 (ix3 b s k) * Entry.dequant x1 x2 x3 x4 x5 (ix2 o k))
          + ∑ r : Fin 32, ((∑ k : Fin 4096, x0 (ix3 b s k) * x8 (ix2 r k)) * x7 (ix1 r)) * x6 (ix2 o r))
        + x9 (ix1 o) := by
  subst h0 h1 h2 h3 h4 h5 h6 h7 h8 h9
  have hp : b.val * 2048 + s.val < 8192 := by have := b.isLt; have := s.isLt; omega
  unfold result
  refine (shapeCast_apply (Out.outArr m c) shapeCasts_S8192x4096_S4x2048x4096 (ix3 b s o) (ix2 (⟨b.val * 2048 + s.val, hp⟩ : Fin 8192) o) (by
    rw [Shape.rowMajor_val_two, Shape.rowMajor_val_three]; rfl)).trans ?_
  refine (outArr_apply m c (⟨b.val * 2048 + s.val, hp⟩ : Fin 8192) o _ _ _ _ _ (Entry.entry_x m c) (Entry.entry_w m c) (Entry.entry_t m c)
    (Entry.entry_ut m c) (Entry.entry_bias m c)).trans ?_
  unfold Out.entry
  simp only [Entry.flat_apply _ b s _ (⟨b.val * 2048 + s.val, hp⟩ : Fin 8192) rfl, Entry.projected_apply]
  refine congrArg₂ (· + ·) (congrArg₂ (· + ·) rfl (Finset.sum_congr rfl fun r _ => ?_)) ?_
  · congr 1; exact Entry.ut_apply _ r o
  · exact Entry.bias_apply _ o

end Cert.KernelIdeal.Result

end
-- ==== Proof.ReferenceResult.lean ====
/-
  The reference's result, read at an index over the extended reals.

  The reference folds the low-rank term into the weight, W = W₀ + (U ⊙ σ) · Vᵀ, contracts the activations with it
  and adds the bias: at (b, s, o)

      Σₖ x(b, s, k) · (W₀(o, k) + Σᵣ (U(o, r) · σ(r)) · Vᵀ(r, k))  +  bias(o).

  W₀ (the table lookup plus the scattered corrections) stays one unopened stage.
-/
import proofs.«159486_j32615981646541_2_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

theorem result_apply (x0 : (⟨S4x2048x4096, .f32⟩ : BufTy).Contents (Elt Ideal)) (x1 : (⟨S256, .f32⟩ : BufTy).Contents (Elt Ideal)) (x2 : (⟨S4096x4096, .i32⟩ : BufTy).Contents (Elt Ideal))
    (x3 x4 : (⟨S65536, .i32⟩ : BufTy).Contents (Elt Ideal)) (x5 : (⟨S65536, .f32⟩ : BufTy).Contents (Elt Ideal)) (x6 : (⟨S4096x32, .f32⟩ : BufTy).Contents (Elt Ideal))
    (x7 : (⟨S32, .f32⟩ : BufTy).Contents (Elt Ideal)) (x8 : (⟨S32x4096, .f32⟩ : BufTy).Contents (Elt Ideal)) (x9 : (⟨S4096, .f32⟩ : BufTy).Contents (Elt Ideal))
    (b : Fin 4) (s : Fin 2048) (o : Fin 4096) :
    val_main_v29 (F := Ideal) x0 x1 x2 x3 x4 x5 x6 x7 x8 x9 (ix3 b s o)
      = (∑ k : Fin 4096, (x0 (ix3 b s k) : EReal) * ((val_main_v20 (F := Ideal) x1 x2 x3 x4 x5 (ix2 o k) : EReal)
            + ∑ r : Fin 32, ((x6 (ix2 o r) : EReal) * (x7 (ix1 r) : EReal)) * (x8 (ix2 r k) : EReal)))
        + (x9 (ix1 o) : EReal) := by
  have e26l : ∀ k : Fin 4096, lidx_main_v26 (ix3 b s o) k = ix3 b s k := fun k => funext fun a => Fin.ext (by
    match a with | ⟨0, _⟩ => rfl | ⟨1, _⟩ => rfl | ⟨2, _⟩ => rfl)
  have e26r : ∀ k : Fin 4096, ridx_main_v26 (ix3 b s o) k = ix2 o k := fun k => funext fun a => Fin.ext (by
    match a with | ⟨0, _⟩ => rfl | ⟨1, _⟩ => rfl)
  have e24l : ∀ (k : Fin 4096) (r : Fin 32), lidx_main_v24 (ix2 o k) r = ix2 o r := fun k r => funext fun a => Fin.ext (by
    match a with | ⟨0, _⟩ => rfl | ⟨1, _⟩ => rfl)
  have e24r : ∀ (k : Fin 4096) (r : Fin 32), ridx_main_v24 (ix2 o k) r = ix2 r k := fun k r => funext fun a => Fin.ext (by
    match a with | ⟨0, _⟩ => rfl | ⟨1, _⟩ => rfl)
  have e22 : ∀ r : Fin 32, idx_main_v21 (idx_main_v22 (ix2 o r)) = ix1 r := fun r => funext fun a => Fin.ext (by
    match a with | ⟨0, _⟩ => rfl)
  have e27 : idx_main_v27 (idx_main_v28 (ix3 b s o)) = ix1 o := funext fun a => Fin.ext (by
    match a with | ⟨0, _⟩ => rfl)
  rw [val_main_v29_apply, val_main_v26_apply, val_main_v28_apply, val_main_v27_apply, e27]
  simp only [e26l, e26r, val_main_v25_apply, val_main_v24_apply, e24l, e24r, val_main_v23_apply, val_main_v22_apply,
    val_main_v21_apply, e22, Ideal.addf_def, Ideal.mulf_def]

end Cert.ReferenceIdeal.RefValue

end
-- ==== Proof.FiniteInputs.lean ====
/-
  From the precondition to real numbers.

  The precondition says, array by array, that every float input is smaller in absolute value than +∞; its
  conjunction is printed as nested `and`s of whole-array `all`s. An extended real x with max x (−x) < ⊤ is
  neither ⊤ nor ⊥, so it is a real number. Only four of the seven arrays are needed for the law that joins the
  two programs: the activations, U, the singular values and Vᵀ.
-/
import proofs.«159486_j32615981646541_2_alg».proof.Pre_finite_inputs
import proofs.«159486_j32615981646541_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = r := by
  rw [inf_word] at h
  induction x using EReal.rec with
  | coe r => exact ⟨r, rfl⟩
  | top => simp [Ideal.cmp] at h
  | bot => simp [Ideal.cmp] at h

/-- One array's `all(|x| < +∞)` gives a real number at every index. -/
theorem real_of_all {s : Shape} {axes : List (Fin s.rank)} (x : FVec Ideal s .f32) (bc : S_.BroadcastsInDim s (![] : Fin 0 → Fin s.rank))
    (hr : s.ReducesTo axes S_) (hu : 0 < S_.numel)
    (h : Host.reduce IntOp.andi (cmpf .olt (Host.absf x) (broadcastInDim s ![] bc (constant (F := Ideal) S_ .f32 0x7F800000#32)))
      (constantI S_ 1 1#1) hr hu ix0 = 1#1) (i : s.Idx) : ∃ r : ℝ, x i = r :=
  real_of_abs_lt (x i) (Host.reduce_andi_all _ _ hr hu ix0 h i)

/-- The precondition gives real numbers for the activations (argument 0), U (6), the singular values (7) and Vᵀ (8). -/
theorem reals_of_pre (x0 : FVec Ideal S4x2048x4096 .f32) (x1 : FVec Ideal S256 .f32) (x2 : IVec S4096x4096 32) (x3 x4 : IVec S65536 32)
    (x5 : FVec Ideal S65536 .f32) (x6 : FVec Ideal S4096x32 .f32) (x7 : FVec Ideal S32 .f32) (x8 : FVec Ideal S32x4096 .f32)
    (x9 : FVec Ideal S4096 .f32) (h : fn (F := Ideal) x0 x1 x2 x3 x4 x5 x6 x7 x8 x9 = fun _ => 1#1) :
    (∀ i, ∃ r : ℝ, x0 i = r) ∧ (∀ i, ∃ r : ℝ, x6 i = r) ∧ (∀ i, ∃ r : ℝ, x7 i = r) ∧ (∀ i, ∃ r : ℝ, x8 i = r) := by
  have h := congrFun h ix0
  dsimp only [fn, fn_part1] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h0, h1⟩ := IntOp.andi_eq_one.1 h
  exact ⟨real_of_all x0 _ _ _ h0, real_of_all x6 _ _ _ h6, real_of_all x7 _ _ _ h7, real_of_all x8 _ _ _ h8⟩

end Cert.Pre_finite_inputs.Finite

end
-- ==== Proof.lean ====
/-
  A quantized linear layer with a low-rank correction, out = x · Wᵀ + bias over f32[4, 2048, 4096], where
  W = W₀ + (U ⊙ σ) · Vᵀ, W₀ a codebook lookup plus sparse scattered corrections, and U, σ, Vᵀ of rank 32.

  The reference materializes W and contracts the activations with it. The kernel never forms W: on the host it
  computes W₀ and the projection t = (x · V) ⊙ σ, and a 16 × 8 grid of [512, 512] output blocks computes
  x · W₀ᵀ + t · Uᵀ + bias, block by block. Read over the extended reals (changes of float format the identity,
  every product and sum exact) the two results are, at (b, s, o),

      (Σₖ x(b,s,k) · W₀(o,k)  +  Σᵣ ((Σₖ x(b,s,k) · Vᵀ(r,k)) · σ(r)) · U(o,r))  +  bias(o)        (kernel)
      Σₖ x(b,s,k) · (W₀(o,k) + Σᵣ (U(o,r) · σ(r)) · Vᵀ(r,k))  +  bias(o)                          (reference)

  and these agree because x, U, σ, Vᵀ are finite (the precondition): a finite factor distributes over the sum of
  any extended real and a finite one, and the finite parts are rearranged in ℝ (Proof/LowRankAlgebra.lean). W₀ is
  the same operations of the same arguments in both programs and is never opened; its entries may be any extended
  reals as far as this proof is concerned.

  The parts: the three matrix products at an index (Proof/Contractions.lean); what the kernel's body stores
  (Proof/BlockBody.lean); the arrays the region finds, as terms of the arguments (Proof/EntryArrays.lean); the
  output array as one function of those, from the blocks (Proof/OutputArray.lean); the program's result after the
  final regrouping (Proof/KernelResult.lean); the reference's result (Proof/ReferenceResult.lean); real numbers from
  the precondition (Proof/FiniteInputs.lean). The idealization rewrote nothing, so the preservation claim is trivial.
-/
import proofs.«159486_j32615981646541_2_alg».proof.Defs
import proofs.«159486_j32615981646541_2_alg».proof.Proof.Gen.Kernel
import proofs.«159486_j32615981646541_2_alg».proof.Proof.Gen.Kernel.Skeleton
import proofs.«159486_j32615981646541_2_alg».proof.Proof.Gen.Kernel.Launch
import proofs.«159486_j32615981646541_2_alg».proof.Proof.Gen.Kernel.Points
import proofs.«159486_j32615981646541_2_alg».proof.Proof.Gen.Kernel.Frame
import proofs.«159486_j32615981646541_2_alg».proof.Proof.Gen.KernelIdeal
import proofs.«159486_j32615981646541_2_alg».proof.Proof.Gen.KernelIdeal.Skeleton
import proofs.«159486_j32615981646541_2_alg».proof.Proof.Gen.KernelIdeal.Launch
import proofs.«159486_j32615981646541_2_alg».proof.Proof.Gen.KernelIdeal.Points
import proofs.«159486_j32615981646541_2_alg».proof.Proof.Gen.KernelIdeal.Frame
import proofs.«159486_j32615981646541_2_alg».proof.Proof.Gen.ReferenceIdeal
import proofs.«159486_j32615981646541_2_alg».proof.Proof.Gen.ReferenceIdeal.Run
import proofs.«159486_j32615981646541_2_alg».proof.Proof.Gen.ReferenceIdeal.Read
import proofs.«159486_j32615981646541_2_alg».proof.Proof.Gen.Pre_finite_inputs
import proofs.«159486_j32615981646541_2_alg».proof.Proof.LowRankAlgebra
import proofs.«159486_j32615981646541_2_alg».proof.Proof.KernelResult
import proofs.«159486_j32615981646541_2_alg».proof.Proof.ReferenceResult
import proofs.«159486_j32615981646541_2_alg».proof.Proof.FiniteInputs
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The weight before the low-rank term is one function in both programs: the same lookup and the same scattered
    add of the same arguments. -/
theorem dequant_eq (x1 : FVec Ideal Cert.KernelIdeal.S256 .f32) (x2 : IVec Cert.KernelIdeal.S4096x4096 32)
    (x3 x4 : IVec Cert.KernelIdeal.S65536 32) (x5 : FVec Ideal Cert.KernelIdeal.S65536 .f32) :
    Cert.ReferenceIdeal.Read.val_main_v20 (F := Ideal) x1 x2 x3 x4 x5 = Cert.KernelIdeal.Entry.dequant x1 x2 x3 x4 x5 := rfl

/-- Both programs end with equal results: each result is read at (b, s, o), the shared weight identified, and the
    two sums joined by the law for a finite row, finite low-rank factors and an arbitrary weight row. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v29_eq, a0, a1, a2, a3, a4, a5, a6, a7, a8, a9]
  obtain ⟨hx, hu, hσ, hv⟩ := Cert.Pre_finite_inputs.Finite.reals_of_pre _ _ _ _ _ _ _ _ _ _ (hpre c)
  funext i
  obtain ⟨b, s, o, rfl⟩ : ∃ (b : Fin 4) (s : Fin 2048) (o : Fin 4096), i = ix3 b s o := ⟨i 0, i 1, i 2, eq_ix3 i⟩
  show _ = Cert.KernelIdeal.Result.result m c (ix3 b s o)
  rw [Cert.ReferenceIdeal.RefValue.result_apply, Cert.KernelIdeal.Result.result_apply m c b s o _ _ _ _ _ _ _ _ _ _ rfl rfl rfl rfl rfl rfl rfl rfl rfl rfl, dequant_eq]
  refine congrArg (fun z : EReal => z + _) ?_
  exact (Cert.LowRank.fold (fun k : Fin 4096 => ((m ((c.tc : Thread Cert.KernelIdeal.nD Cert.KernelIdeal.τ).loc Cert.KernelIdeal.main_arg0)) (ix3 b s k) : EReal))
    (fun k : Fin 4096 => (Cert.KernelIdeal.Entry.dequant (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix2 o k) : EReal))
    (fun r : Fin 32 => ((m ((c.tc : Thread Cert.KernelIdeal.nD Cert.KernelIdeal.τ).loc Cert.KernelIdeal.main_arg6)) (ix2 o r) : EReal)) (fun r : Fin 32 => ((m ((c.tc : Thread Cert.KernelIdeal.nD Cert.KernelIdeal.τ).loc Cert.KernelIdeal.main_arg7)) (ix1 r) : EReal))
    (fun (r : Fin 32) (k : Fin 4096) => ((m ((c.tc : Thread Cert.KernelIdeal.nD Cert.KernelIdeal.τ).loc Cert.KernelIdeal.main_arg8)) (ix2 r k) : EReal))
    (fun k => hx _) (fun r => hu _) (fun r => hσ _) (fun r k => hv _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
